-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x32 : Shape := ⟨2, ![4096, 32]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : IVec S4096x4096 32) (main_arg2 : FVec F S4096x32 .f32) (main_arg3 : FVec F S4096x32 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096x32 : Shape := ⟨2, ![4096, 32]⟩
abbrev S4096 : Shape := ⟨1, ![4096]⟩
abbrev S32x4096 : Shape := ⟨2, ![32, 4096]⟩
abbrev S1x4096 : Shape := ⟨2, ![1, 4096]⟩
abbrev S1024x1024 : Shape := ⟨2, ![1024, 1024]⟩
abbrev S512x1024 : Shape := ⟨2, ![512, 1024]⟩
abbrev S8x512 : Shape := ⟨2, ![8, 512]⟩
abbrev S1x512 : Shape := ⟨2, ![1, 512]⟩
abbrev S1024x512 : Shape := ⟨2, ![1024, 512]⟩
abbrev S512x8x128 : Shape := ⟨3, ![512, 8, 128]⟩
abbrev S512x8 : Shape := ⟨2, ![512, 8]⟩
abbrev S512x8x1 : Shape := ⟨3, ![512, 8, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S32x4096, .f32⟩
  | .hbm, ⟨6, _⟩ => ⟨S32x4096, .f32⟩
  | .hbm, ⟨7, _⟩ => ⟨S1x4096, .f32⟩
  | .hbm, ⟨8, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .i32⟩
  | .local _ .vmem, ⟨3, _⟩ => ⟨S512x1024, .i32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v28 : BitVec 1 := Scalar.cmpi .eq arg2 c3_i32
  let v29 : BitVec 32 := Scalar.extui v28
  let c0_i32_12 : BitVec 32 := 0#32
  let v30 : BitVec 1 := Scalar.cmpi .ne v29 c0_i32_12
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  transposes_S4096x32_S32x4096_1_0 : S4096x32.Transposes [1, 0] S32x4096
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x8x128 : S512x1024.ShapeCasts S512x8x128
  inb_S8x512_S8x512_0_0 : ∀ a, (![0, 0] : Fin 2 → Nat) a + S8x512.size a ≤ S8x512.size a
  h_S8x512 : 0 < S8x512.numel
  shapeCasts_S8x512_S8x512 : S8x512.ShapeCasts S8x512
  transposes_S8x512_p1_0_S512x8 : S8x512.Transposes [1, 0] S512x8
  shapeCasts_S512x8_S512x8x1 : S512x8.ShapeCasts S512x8x1
  broadcasts_S512x8x1_S512x8x128 : S512x8x1.Broadcasts S512x8x128
  shapeCasts_S512x8x128_S512x1024 : S512x8x128.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .i32 = 32 ∨ (Rect.block (s := S4096x4096) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S32x4096.size a
  hwx0_2 : ∀ i : grid0.Coords, EltTy.bits .f32 = 32 ∨ (Rect.block (s := S32x4096) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S32x4096.size a
  hwx0_3 : ∀ i : grid0.Coords, EltTy.bits .f32 = 32 ∨ (Rect.block (s := S32x4096) S8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x4096.size a
  hwx0_5 : ∀ i : grid0.Coords, EltTy.bits .f32 = 32 ∨ (Rect.block (s := S8192x4096) S1024x512.size (cc0_transform_5 i) (hinb0_5 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x32 : Shape := ⟨2, ![4096, 32]⟩
abbrev S4096 : Shape := ⟨1, ![4096]⟩
abbrev S4096x32x128 : Shape := ⟨3, ![4096, 32, 128]⟩
abbrev S4096x32x1 : Shape := ⟨3, ![4096, 32, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S4096x4096, .f32⟩
  | .hbm, ⟨6, _⟩ => ⟨S4096x32x128, .f32⟩
  | .hbm, ⟨7, _⟩ => ⟨S4096x32x1, .f32⟩
  | .hbm, ⟨8, _⟩ => ⟨S4096x32x128, .f32⟩
  | .hbm, ⟨9, _⟩ => ⟨S4096x32x128, .f32⟩
  | .hbm, ⟨10, _⟩ => ⟨S4096x32x1, .f32⟩
  | .hbm, ⟨11, _⟩ => ⟨S4096x32x128, .f32⟩
  | .hbm, ⟨12, _⟩ => ⟨S4096x32x128, .f32⟩
  | .hbm, ⟨13, _⟩ => ⟨S4096x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.CaseValues.lean ====
/-
  What each kind of grid point leaves behind, as values of what it found.

  The innermost grid axis walks the four tiles of the input axis. A point's body always performs the accumulation step
  on the running block it keeps between points; the first tile's point first resets that block to zeros, the last tile's
  point afterwards writes the finished block plus the bias row into the output block. So, with x the token tile, q the
  code tile, s and z the scale and zero-point tiles, b the bias row and acc what the point before left:
    first tile:    the running block becomes  step (zeros);
    middle tiles:  the running block becomes  step (acc);
    last tile:     the running block becomes  step (acc), and the output block becomes  step (acc) + b.
  Each statement reads the stores the point's run performed back as one value: every store covers its whole buffer, so
  the last store into a buffer is what it holds, and a load after a store reads that store's value.
-/
import proofs.«181240_j29317446762953_1_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A middle tile's point leaves the accumulation step over what the point before left. -/
theorem scratch_B (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : ¬cond0_1 i) (x0 : Vec F S1024x1024 .f32) (x1 : Vec F S512x1024 .i32) (x2 : Vec F S8x512 .f32) (x3 : Vec F S8x512 .f32) (x4 : Vec F S1x512 .f32) (xs0 : Vec F S1024x512 .f32) :
    sout0_B_0 c i arg3 harg3 arg4 harg4 arg5 harg5 arg6 harg6 arg7 harg7 arg8 harg8 arg9 harg9 hc0 hc1 x0 x1 x2 x3 x4 xs0 = k0_pay2 x1 x2 x3 x0 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  rw [View.canon_unit_zero hz]
  simp only [View.readAt_eq_ld, harg3.read_unread, harg4.read_unread, harg5.read_unread, harg6.read_unread, harg7.read_unread, harg9.read_unread, View.ld_unit_zero (S := S1024x1024) hz, View.ld_unit_zero (S := S512x1024) hz, View.ld_unit_zero (S := S8x512) hz, View.ld_unit_zero (S := S1024x512) hz, View.ld_unit_zero (S := S1x512) hz]

/-- The first tile's point leaves the accumulation step over the block of zeros it has just stored and read back. -/
theorem scratch_A (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond0_0 i) (hc1 : ¬cond0_1 i) (x0 : Vec F S1024x1024 .f32) (x1 : Vec F S512x1024 .i32) (x2 : Vec F S8x512 .f32) (x3 : Vec F S8x512 .f32) (x4 : Vec F S1x512 .f32) :
    sout0_A_0 c i arg3 harg3 arg4 harg4 arg5 harg5 arg6 harg6 arg7 harg7 arg8 harg8 arg9 harg9 hc0 hc1 x0 x1 x2 x3 x4 = k0_pay2 x1 x2 x3 x0 k0_pay1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x512) hz, View.readCov_unit_zero (S := S1024x512) _ hz]
  simp only [View.readAt_eq_ld, harg3.read_unread, harg4.read_unread, harg5.read_unread, harg6.read_unread, harg7.read_unread, harg9.read_unread, View.ld_unit_zero (S := S1024x1024) hz, View.ld_unit_zero (S := S512x1024) hz, View.ld_unit_zero (S := S8x512) hz, View.ld_unit_zero (S := S1024x512) hz, View.ld_unit_zero (S := S1x512) hz]

/-- The last tile's point leaves the same accumulation step in the running block … -/
theorem scratch_C (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i) (x0 : Vec F S1024x1024 .f32) (x1 : Vec F S512x1024 .i32) (x2 : Vec F S8x512 .f32) (x3 : Vec F S8x512 .f32) (x4 : Vec F S1x512 .f32) (xs0 : Vec F S1024x512 .f32) :
    sout0_C_0 c i arg3 harg3 arg4 harg4 arg5 harg5 arg6 harg6 arg7 harg7 arg8 harg8 arg9 harg9 hc0 hc1 x0 x1 x2 x3 x4 xs0 = k0_pay2 x1 x2 x3 x0 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg7.read_unread, harg9.read_unread, View.ld_unit_zero (S := S1024x1024) hz, View.ld_unit_zero (S := S512x1024) hz, View.ld_unit_zero (S := S8x512) hz, View.ld_unit_zero (S := S1024x512) hz, View.ld_unit_zero (S := S1x512) hz]

/-- … and in the output block that step, read back, plus the bias row. -/
theorem out_C (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i) (x0 : Vec F S1024x1024 .f32) (x1 : Vec F S512x1024 .i32) (x2 : Vec F S8x512 .f32) (x3 : Vec F S8x512 .f32) (x4 : Vec F S1x512 .f32) (xs0 : Vec F S1024x512 .f32) :
    out0_C_5 c i arg3 harg3 arg4 harg4 arg5 harg5 arg6 harg6 arg7 harg7 arg8 harg8 arg9 harg9 hc0 hc1 x0 x1 x2 x3 x4 xs0 = k0_pay3 (k0_pay2 x1 x2 x3 x0 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz, View.readCov_unit_zero (S := S1024x512) _ hz]
  simp only [View.readAt_eq_ld, harg3.read_unread, harg4.read_unread, harg5.read_unread, harg6.read_unread, harg7.read_unread, harg9.read_unread, View.ld_unit_zero (S := S1024x1024) hz, View.ld_unit_zero (S := S512x1024) hz, View.ld_unit_zero (S := S8x512) hz, View.ld_unit_zero (S := S1024x512) hz, View.ld_unit_zero (S := S1x512) hz]

end Cert.KernelIdeal.Cases

end
-- ==== Proof.LibProductAtT.lean ====
/-
  A matrix product whose right factor is used transposed, read at an index.

  Dimension numbers of a product [A, K] × [B, K] → [A, B] that contract axis 1 of BOTH factors, with no batch axis, index
  the two factors at the result index (p, q) and the contraction index k by (p, k) and (q, k). So any sum over the
  contraction index — a tile product into an accumulator, a host dot_general — is the sum over k < K of
  l (p, k) · r (q, k): it reads row p of the left factor and ROW q of the right one (x · Wᵀ with W stored [out, in]).
  General: nothing here depends on a particular program. An instance supplies the two kept coordinates (hl0, hr0: each
  is "unfold DotDims.lhsIdx; rw [dif_neg …, dif_pos …]; rfl" for literal dimension numbers) and rfl four times.
-/
import Idealize.ShloMosaic.Lib.ValueIdx
import Idealize.ShloMosaic.PureOps.Ideal.Laws

noncomputable section

namespace Cert.LibProductAtT

open Idealize.ShloMosaic Idealize.ShloMosaic.ValueIdx

/-- THE SUM, RE-INDEXED. Dimension numbers that contract axis 1 of both factors and keep axis 0 of the left factor as
    the result's rows and axis 0 of the right factor as its columns (hl0, hr0): the sum over the contraction index is
    the sum over k < K of l (p, k) · r (q, k) at the result index (p, q). -/
theorem product_sum_eq {A B K : Nat} {φ₁ φ₂ : FTy}
    (d : DotDims (⟨2, ![A, K]⟩ : Shape) (⟨2, ![B, K]⟩ : Shape) (⟨2, ![A, B]⟩ : Shape))
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂) (p : Fin A) (q : Fin B) :
    ∑ c : d.contr.Idx, l (d.lhsIdx (ix2 p q) c) * r (d.rhsIdx (ix2 p q) c) = ∑ k : Fin K, l (ix2 p k) * r (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 _ _
      | ⟨1, _⟩ => exact (d.lhsIdx_val_of_single hlc _ _).trans hk)
  have er : d.rhsIdx (ix2 p q) ((contrEquiv1 d K hr hs).symm k) = ix2 q k :=
    funext fun a => Fin.ext (by
      match a with
      | ⟨0, _⟩ => exact hr0 _ _
      | ⟨1, _⟩ => exact (d.rhsIdx_val_of_single hrc _ _).trans hk)
  rw [el, er]

/-- A tile product into an accumulator, at (p, q): acc (p, q) + Σ_k l (p, k) · r (q, k). -/
theorem matmul_apply {A B K : Nat} {φ₁ φ₂ : FTy}
    (d : DotDims (⟨2, ![A, K]⟩ : Shape) (⟨2, ![B, K]⟩ : Shape) (⟨2, ![A, B]⟩ : Shape)) (prec : Option ContractPrecision)
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂)
    (acc : FVec Ideal (⟨2, ![A, B]⟩ : Shape) .f32) (p : Fin A) (q : Fin B) :
    FloatOps.matmul d prec l r acc (ix2 p q) = acc (ix2 p q) + ∑ k : Fin K, l (ix2 p k) * r (ix2 q k) := by
  rw [Ideal.matmul_apply, product_sum_eq d hr hs hlc hrc hl0 hr0]

/-- A tile product into the zero accumulator, at (p, q): Σ_k l (p, k) · r (q, k). -/
theorem matmul_zero_apply {A B K : Nat} {φ₁ φ₂ : FTy}
    (d : DotDims (⟨2, ![A, K]⟩ : Shape) (⟨2, ![B, K]⟩ : Shape) (⟨2, ![A, B]⟩ : Shape)) (prec : Option ContractPrecision)
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 q k) := by
  rw [Ideal.matmul_constant_zero_apply, product_sum_eq d hr hs hlc hrc hl0 hr0]

/-- A host dot_general with these dimension numbers, at (p, q): Σ_k l (p, k) · r (q, k). -/
theorem dotGeneral_apply {A B K : Nat} {φ₁ φ₂ : FTy}
    (d : DotDims (⟨2, ![A, K]⟩ : Shape) (⟨2, ![B, K]⟩ : Shape) (⟨2, ![A, B]⟩ : Shape)) (prec : Option ContractPrecision)
    (sched : HostSchedule)
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂) (p : Fin A) (q : Fin B) :
    FloatOps.dotGeneral d prec sched l r (ix2 p q) = ∑ k : Fin K, l (ix2 p k) * r (ix2 q k) := by
  rw [Ideal.dotGeneral_apply, product_sum_eq d hr hs hlc hrc hl0 hr0]

end Cert.LibProductAtT

end
-- ==== Proof.LibGroupAxes.lean ====
/-
  The last axis of a matrix cut into groups, and the layout operations around it, read at an index.

  An [a, n] array with n = b · c is the same row-major data as an [a, b, c] array: position k of a row is place l of
  group g exactly when k = g · c + l. So a cast [a, n] → [a, b, c] read at (i, g, l) is the operand at (i, k), and the
  cast back read at (i, k) is the operand at (i, g, l). Beside them, the two steps that spread one value per group
  over the group's places: a cast [a, b] → [a, b, 1] (a trailing unit axis added) read at (i, g, u) is the operand at
  (i, g), and a broadcast [a, b, 1] → [a, b, c] read at (i, g, l) is the operand at (i, g, 0).
  General: nothing here depends on a particular program.
-/
import Idealize.ShloMosaic.Lib.Pipeline.Value
import Idealize.ShloMosaic.Lib.ValueIdx

namespace Cert.LibGroupAxes

open Idealize.ShloMosaic Idealize.ShloMosaic.ValueIdx

variable {α : Type}

/-- A row of n = b · c places cut into b groups of c: the cast [a, n] → [a, b, c] read at (i, g, l) is the operand at
    (i, k) where k = g · c + l. -/
theorem splitLast_apply {a b c n : ℕ} (x : (⟨2, ![a, n]⟩ : Shape).Idx → α)
    (h : (⟨2, ![a, n]⟩ : Shape).ShapeCasts ⟨3, ![a, b, c]⟩) (hn : n = b * c)
    (i : Fin a) (g : Fin b) (l : Fin c) (k : Fin n) (hk : k.val = g.val * c + l.val) :
    shapeCast ⟨3, ![a, b, c]⟩ x h (ix3 i g l) = x (ix2 i k) :=
  shapeCast_apply x h _ _ (by
    rw [Shape.rowMajor_val_two, Shape.rowMajor_val_three]
    show i.val * n + k.val = (i.val * b + g.val) * c + l.val
    rw [hk, hn, Nat.add_mul, Nat.mul_assoc, Nat.add_assoc])

/-- The groups laid end to end again: the cast [a, b, c] → [a, n] read at (i, k) is the operand at (i, g, l) where
    k = g · c + l. -/
theorem mergeLast_apply {a b c n : ℕ} (x : (⟨3, ![a, b, c]⟩ : Shape).Idx → α)
    (h : (⟨3, ![a, b, c]⟩ : Shape).ShapeCasts ⟨2, ![a, n]⟩) (hn : n = b * c)
    (i : Fin a) (k : Fin n) (g : Fin b) (l : Fin c) (hk : k.val = g.val * c + l.val) :
    shapeCast ⟨2, ![a, n]⟩ x h (ix2 i k) = x (ix3 i g l) :=
  shapeCast_apply x h _ _ (by
    rw [Shape.rowMajor_val_two, Shape.rowMajor_val_three]
    show (i.val * b + g.val) * c + l.val = i.val * n + k.val
    rw [hk, hn, Nat.add_mul, Nat.mul_assoc, Nat.add_assoc])

/-- A trailing unit axis added: the cast [a, b] → [a, b, 1] read at (i, g, u) is the operand at (i, g). -/
theorem addLastUnit_apply {a b : ℕ} (x : (⟨2, ![a, b]⟩ : Shape).Idx → α)
    (h : (⟨2, ![a, b]⟩ : Shape).ShapeCasts ⟨3, ![a, b, 1]⟩) (i : Fin a) (g : Fin b) (u : Fin 1) :
    shapeCast ⟨3, ![a, b, 1]⟩ x h (ix3 i g u) = x (ix2 i g) :=
  shapeCast_apply x h _ _ (by
    rw [Shape.rowMajor_val_two, Shape.rowMajor_val_three]
    show i.val * b + g.val = (i.val * b + g.val) * 1 + u.val
    have := u.isLt
    omega)

/-- One value per group spread over the group's places: the broadcast [a, b, 1] → [a, b, c] read at (i, g, l) is the
    operand at (i, g, 0). -/
theorem spreadLast_apply {a b c : ℕ} (x : (⟨3, ![a, b, 1]⟩ : Shape).Idx → α)
    (h : (⟨3, ![a, b, 1]⟩ : Shape).Broadcasts ⟨3, ![a, b, c]⟩) (i : Fin a) (g : Fin b) (l : Fin c) :
    broadcastTo ⟨3, ![a, b, c]⟩ x h (ix3 i g l) = x (ix3 i g (0 : Fin 1)) := by
  refine broadcastTo_apply x h (ix3 i g l) (ix3 i g (0 : Fin 1)) fun ax => ?_
  match ax with
  | ⟨0, _⟩ =>
    show i.val = if a = 1 then 0 else i.val
    split
    · have := i.isLt; omega
    · rfl
  | ⟨1, _⟩ =>
    show g.val = if b = 1 then 0 else g.val
    split
    · have := g.isLt; omega
    · rfl
  | ⟨2, _⟩ => rfl

end Cert.LibGroupAxes
-- ==== Proof.TileProduct.lean ====
/-
  What one grid point's arithmetic computes, entry by entry, on the extended reals.

  A point holds a tile of tokens x : [1024, 1024] (1024 tokens, 1024 input positions), the matching tile of weight
  codes q : [512, 1024] (512 output features), and for those features the scales and zero points of the tile's 8 groups
  of 128 positions, stored group-major: s, z : [8, 512]. The body rebuilds the weight tile
      w (f, e) = (q (f, e) − z (e / 128, f)) · s (e / 128, f)
  (the codes cut into groups [512, 8, 128], the per-group values transposed to [512, 8] and spread over each group's 128
  places, then the groups laid end to end again) and adds x · wᵀ onto the running block:
      acc' (p, f) = acc (p, f) + Σ_{e < 1024} x (p, e) · w (f, e).
  The narrowing of x and w to a 16-bit format before the product is the identity on extended reals. The running block starts
  as zeros, and after the last tile of the input axis the bias row is added: out (p, f) = acc (p, f) + bias (0, f).
-/
import proofs.«181240_j29317446762953_1_alg».proof.Proof.Gen.KernelIdeal.Skeleton
import proofs.«181240_j29317446762953_1_alg».proof.Proof.LibProductAtT
import proofs.«181240_j29317446762953_1_alg».proof.Proof.LibGroupAxes
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx

variable {F : FTy → Type} [FloatOps F]

/-- The group, among the tile's 8, of position e of the tile's 1024. -/
def sub (e : Fin 1024) : Fin 8 := ⟨e.val / 128, by have := e.isLt; omega⟩

/-- The place of position e inside its group. -/
def plc (e : Fin 1024) : Fin 128 := ⟨e.val % 128, Nat.mod_lt _ (by decide)⟩

/-- The rebuilt weight tile, as the body spells it (any float instance). -/
def wtile (v3 : Vec F S512x1024 .i32) (v6 v9 : Vec F S8x512 .f32) : FVec F S512x1024 .f32 :=
  shapeCast S512x1024
    (mulf
      (subf (shapeCast S512x8x128 (sitofp .f32 v3) shapeCasts_S512x1024_S512x8x128)
        (broadcastTo S512x8x128
          (shapeCast S512x8x1
            (transpose S512x8 [1, 0] (shapeCast S8x512 v9 shapeCasts_S8x512_S8x512) transposes_S8x512_p1_0_S512x8)
            shapeCasts_S512x8_S512x8x1)
          broadcasts_S512x8x1_S512x8x128))
      (broadcastTo S512x8x128
        (shapeCast S512x8x1
          (transpose S512x8 [1, 0] (shapeCast S8x512 v6 shapeCasts_S8x512_S8x512) transposes_S8x512_p1_0_S512x8)
          shapeCasts_S512x8_S512x8x1)
        broadcasts_S512x8x1_S512x8x128))
    shapeCasts_S512x8x128_S512x1024

/-- The accumulation step is the running block plus the product of the token tile with the rebuilt weight tile. -/
theorem pay2_eq (v3 : Vec F S512x1024 .i32) (v6 v9 : Vec F S8x512 .f32) (v20 : Vec F S1024x1024 .f32)
    (v22 : Vec F S1024x512 .f32) :
    k0_pay2 v3 v6 v9 v20 v22
      = shapeCast S1024x512
          (addf v22 (matmul dot_S1024x1024_S512x1024_S1024x512_1_1_0_0_n_n none
            (truncf .bf16 v20 bitsLt_bf16_f32) (truncf .bf16 (wtile v3 v6 v9) bitsLt_bf16_f32)
            (constant S1024x512 .f32 0x00000000#32)))
          shapeCasts_S1024x512_S1024x512 := rfl

/-- Entry (f, e) of the rebuilt weight tile. -/
theorem wtile_at (v3 : Vec Ideal S512x1024 .i32) (v6 v9 : Vec Ideal S8x512 .f32) (f : Fin 512) (e : Fin 1024) :
    wtile (F := Ideal) v3 v6 v9 (ix2 f e)
      = (FloatOps.sitofp (F := Ideal) .f32 (v3 (ix2 f e)) - v9 (ix2 (sub e) f)) * v6 (ix2 (sub e) f) := by
  have he : e.val = (sub e).val * 128 + (plc e).val := by
    show e.val = e.val / 128 * 128 + e.val % 128
    omega
  unfold wtile
  rw [LibGroupAxes.mergeLast_apply _ _ (by decide) f e (sub e) (plc e) he]
  rw [mulf_apply, subf_apply]
  rw [LibGroupAxes.splitLast_apply _ _ (by decide) f (sub e) (plc e) e he]
  rw [sitofp_apply]
  rw [LibGroupAxes.spreadLast_apply, LibGroupAxes.addLastUnit_apply, transpose_ix2_apply, shapeCast_self]
  rw [LibGroupAxes.spreadLast_apply, LibGroupAxes.addLastUnit_apply, transpose_ix2_apply, shapeCast_self]

/-- The product's dimension numbers keep the token row of the left factor … -/
theorem lhs_row (i : S1024x512.Idx) (c : dot_S1024x1024_S512x1024_S1024x512_1_1_0_0_n_n.contr.Idx) :
    (dot_S1024x1024_S512x1024_S1024x512_1_1_0_0_n_n.lhsIdx i c 0).val = (i 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl

/-- … and the feature row of the right one. -/
theorem rhs_row (i : S1024x512.Idx) (c : dot_S1024x1024_S512x1024_S1024x512_1_1_0_0_n_n.contr.Idx) :
    (dot_S1024x1024_S512x1024_S1024x512_1_1_0_0_n_n.rhsIdx i c 0).val = (i 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl

/-- The block of zeros the accumulation starts from. -/
theorem pay1_at (p : Fin 1024) (f : Fin 512) : k0_pay1 (F := Ideal) (ix2 p f) = 0 := by
  unfold k0_pay1
  rw [shapeCast_self]
  exact Ideal.ofBits_zero_f32

/-- THE ACCUMULATION STEP at (p, f): the running block's entry plus Σ_e x (p, e) · w (f, e). -/
theorem pay2_at (v3 : Vec Ideal S512x1024 .i32) (v6 v9 : Vec Ideal S8x512 .f32) (v20 : Vec Ideal S1024x1024 .f32)
    (v22 : Vec Ideal S1024x512 .f32) (p : Fin 1024) (f : Fin 512) :
    k0_pay2 (F := Ideal) v3 v6 v9 v20 v22 (ix2 p f)
      = v22 (ix2 p f) + ∑ e : Fin 1024, v20 (ix2 p e)
          * ((FloatOps.sitofp (F := Ideal) .f32 (v3 (ix2 f e)) - v9 (ix2 (sub e) f)) * v6 (ix2 (sub e) f)) := by
  rw [pay2_eq, shapeCast_self, addf_apply]
  refine congrArg _ ((Cert.LibProductAtT.matmul_zero_apply dot_S1024x1024_S512x1024_S1024x512_1_1_0_0_n_n none rfl rfl
    rfl rfl lhs_row rhs_row (truncf .bf16 v20 bitsLt_bf16_f32) (truncf .bf16 (wtile v3 v6 v9) bitsLt_bf16_f32) p f).trans ?_)
  refine Finset.sum_congr rfl fun e _ => ?_
  rw [truncf_apply, truncf_apply, wtile_at]

/-- The last step at (p, f): the finished block's entry plus the bias of feature f. -/
theorem pay3_at (v31 : Vec Ideal S1024x512 .f32) (v32 : Vec Ideal S1x512 .f32) (p : Fin 1024) (f : Fin 512) :
    k0_pay3 (F := Ideal) v31 v32 (ix2 p f) = v31 (ix2 p f) + v32 (ix2 (0 : Fin 1) f) := by
  unfold k0_pay3
  rw [addf_apply, broadcastTo_1b_ab_apply, shapeCast_self]

/-- One tile's contribution to entry (p, f): Σ_e x (p, e) · w (f, e) over the tile's 1024 input positions. -/
def contrib (q : Vec Ideal S512x1024 .i32) (s z : Vec Ideal S8x512 .f32) (x : Vec Ideal S1024x1024 .f32)
    (p : Fin 1024) (f : Fin 512) : EReal :=
  ∑ e : Fin 1024, x (ix2 p e) * ((FloatOps.sitofp (F := Ideal) .f32 (q (ix2 f e)) - z (ix2 (sub e) f)) * s (ix2 (sub e) f))

/-- FOUR TILES THEN THE BIAS at (p, f): the four contributions added one after the other onto zero, plus the bias. -/
theorem chain_at (q0 q1 q2 q3 : Vec Ideal S512x1024 .i32) (s0 s1 s2 s3 z0 z1 z2 z3 : Vec Ideal S8x512 .f32)
    (x0 x1 x2 x3 : Vec Ideal S1024x1024 .f32) (b : Vec Ideal S1x512 .f32) (p : Fin 1024) (f : Fin 512) :
    k0_pay3 (F := Ideal)
        (k0_pay2 q3 s3 z3 x3 (k0_pay2 q2 s2 z2 x2 (k0_pay2 q1 s1 z1 x1 (k0_pay2 q0 s0 z0 x0 (k0_pay1 (F := Ideal)))))) b (ix2 p f)
      = ((((0 + contrib q0 s0 z0 x0 p f) + contrib q1 s1 z1 x1 p f) + contrib q2 s2 z2 x2 p f) + contrib q3 s3 z3 x3 p f)
        + b (ix2 (0 : Fin 1) f) := by
  rw [pay3_at, pay2_at, pay2_at, pay2_at, pay2_at, pay1_at]
  rfl

end Cert.KernelIdeal.Tile

end
-- ==== Proof.Blocks.lean ====
/-
  Where each grid point's tiles sit in the whole arrays.

  The grid is 8 × 8 × 4: point t = (i·8 + j)·4 + k handles token rows 1024·i …, output features 512·j … and input
  positions 1024·k …, so i = t / 32, j = t / 4 mod 8, k = t mod 4. At that point
    the token tile       entry (p, e) is  x     (1024·i + p, 1024·k + e),
    the code tile        entry (f, e) is  q     (512·j + f, 1024·k + e),
    the scale tile       entry (g, f) is  scale (512·j + f, 8·k + g)   (the scales reach the grid transposed, group-major),
    the zero-point tile  entry (g, f) is  zero  (512·j + f, 8·k + g)   (likewise),
    the bias tile        entry (0, f) is  bias  (512·j + f)            (the bias reaches the grid as a single row),
  and the output tile's entry (p, f) is entry (1024·i + p, 512·j + f) of the result.
-/
import proofs.«181240_j29317446762953_1_alg».proof.Proof.Gen.KernelIdeal.Frame
import Idealize.ShloMosaic.Lib.StableHlo.Run
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block each window holds at point t, in terms of t's three grid coordinates. -/
theorem idx_facts : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val % 4 ∧ win0_2.index t (1 : Fin 2) = t.val / 4 % 8
    ∧ win0_3.index t (0 : Fin 2) = t.val % 4 ∧ win0_3.index t (1 : Fin 2) = t.val / 4 % 8
    ∧ win0_4.index t (0 : Fin 2) = 0 ∧ win0_4.index t (1 : Fin 2) = t.val / 4 % 8
    ∧ win0_5.index t (0 : Fin 2) = t.val / 32 ∧ win0_5.index t (1 : Fin 2) = t.val / 4 % 8 :=
  (by decide +kernel : ∀ t : Fin grid0.N, _)

/-- The scales reach the grid transposed … -/
theorem V_scales (c : Dev nD) :
    (V m c main_v0 : S32x4096.Idx → Elt F .f32)
      = transpose S32x4096 [1, 0] (m ((c : Thread nD τ).loc main_arg2)) transposes_S4096x32_S32x4096_1_0 := by
  dsimp only [V, hostOps0]; after_results

/-- … and so do the zero points; -/
theorem V_zeros (c : Dev nD) :
    (V m c main_v1 : S32x4096.Idx → Elt F .f32)
      = transpose S32x4096 [1, 0] (m ((c : Thread nD τ).loc main_arg3)) transposes_S4096x32_S32x4096_1_0 := by
  dsimp only [V, hostOps0]; after_results

/-- the bias reaches it as one row. -/
theorem V_bias (c : Dev nD) :
    (V m c main_v2 : S1x4096.Idx → Elt F .f32)
      = shapeCast S1x4096 (m ((c : Thread nD τ).loc main_arg4)) shapeCasts_S4096_S1x4096 := by
  dsimp only [V, hostOps0]; after_results; rfl

/-- The token tile's entry (p, e). -/
theorem tokens_at (c : Dev nD) (t : Fin cfg0.N) (p e : Fin 1024) (R : Fin 8192) (K : Fin 4096)
    (hR : R.val = 1024 * (t.val / 32) + p.val) (hK : K.val = 1024 * (t.val % 4) + e.val) :
    (iblk m c 0 t : Vec F S1024x1024 .f32) (ix2 p e) = m ((c : Thread nD τ).loc main_arg0) (ix2 R K) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = R.val; omega
  | ⟨1, _⟩ => show win0_0.index t (1 : Fin 2) * 1024 + 1 * e.val = K.val; omega

/-- The code tile's entry (f, e). -/
theorem codes_at (c : Dev nD) (t : Fin cfg0.N) (f : Fin 512) (e : Fin 1024) (O K : Fin 4096)
    (hO : O.val = 512 * (t.val / 4 % 8) + f.val) (hK : K.val = 1024 * (t.val % 4) + e.val) :
    (iblk m c 1 t : Vec F S512x1024 .i32) (ix2 f e) = m ((c : Thread nD τ).loc main_arg1) (ix2 O K) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 512 + 1 * f.val = O.val; omega
  | ⟨1, _⟩ => show win0_1.index t (1 : Fin 2) * 1024 + 1 * e.val = K.val; omega

/-- The scale tile's entry (g, f). -/
theorem scales_at (c : Dev nD) (t : Fin cfg0.N) (g : Fin 8) (f : Fin 512) (O : Fin 4096) (G : Fin 32)
    (hO : O.val = 512 * (t.val / 4 % 8) + f.val) (hG : G.val = 8 * (t.val % 4) + g.val) :
    (iblk m c 2 t : Vec F S8x512 .f32) (ix2 g f) = m ((c : Thread nD τ).loc main_arg2) (ix2 O G) := by
  obtain ⟨-, -, -, -, e0, e1, -⟩ := idx_facts t
  unfold iblk
  rw [View.read_apply]
  show (V m c main_v0 : S32x4096.Idx → Elt F .f32) _ = _
  rw [V_scales]
  refine Eq.trans (congrArg _ (funext fun a => Fin.ext ?_)) (transpose_ix2_apply _ _ G O)
  match a with
  | ⟨0, _⟩ => show win0_2.index t (0 : Fin 2) * 8 + 1 * g.val = G.val; omega
  | ⟨1, _⟩ => show win0_2.index t (1 : Fin 2) * 512 + 1 * f.val = O.val; omega

/-- The zero-point tile's entry (g, f). -/
theorem zeros_at (c : Dev nD) (t : Fin cfg0.N) (g : Fin 8) (f : Fin 512) (O : Fin 4096) (G : Fin 32)
    (hO : O.val = 512 * (t.val / 4 % 8) + f.val) (hG : G.val = 8 * (t.val % 4) + g.val) :
    (iblk m c 3 t : Vec F S8x512 .f32) (ix2 g f) = m ((c : Thread nD τ).loc main_arg3) (ix2 O G) := by
  obtain ⟨-, -, -, -, -, -, e0, e1, -⟩ := idx_facts t
  unfold iblk
  rw [View.read_apply]
  show (V m c main_v1 : S32x4096.Idx → Elt F .f32) _ = _
  rw [V_zeros]
  refine Eq.trans (congrArg _ (funext fun a => Fin.ext ?_)) (transpose_ix2_apply _ _ G O)
  match a with
  | ⟨0, _⟩ => show win0_3.index t (0 : Fin 2) * 8 + 1 * g.val = G.val; omega
  | ⟨1, _⟩ => show win0_3.index t (1 : Fin 2) * 512 + 1 * f.val = O.val; omega

/-- The bias tile's entry (0, f). -/
theorem bias_at (c : Dev nD) (t : Fin cfg0.N) (f : Fin 512) (O : Fin 4096)
    (hO : O.val = 512 * (t.val / 4 % 8) + f.val) :
    (iblk m c 4 t : Vec F S1x512 .f32) (ix2 (0 : Fin 1) f) = m ((c : Thread nD τ).loc main_arg4) (ix1 O) := by
  obtain ⟨-, -, -, -, -, -, -, -, e0, e1, -⟩ := idx_facts t
  unfold iblk
  rw [View.read_apply]
  show (V m c main_v2 : S1x4096.Idx → Elt F .f32) _ = _
  rw [V_bias]
  refine Eq.trans (congrArg _ (funext fun a => Fin.ext ?_)) (shapeCast_a_1a_apply _ _ (0 : Fin 1) O)
  match a with
  | ⟨0, _⟩ => show win0_4.index t (0 : Fin 2) * 1 + 1 * 0 = 0; omega
  | ⟨1, _⟩ => show win0_4.index t (1 : Fin 2) * 512 + 1 * f.val = O.val; omega

/-- The output tile's entry (p, f) is the result's entry (1024·i + p, 512·j + f). -/
theorem out_emb (t : Fin cfg0.N) (p : Fin 1024) (f : Fin 512) (R : Fin 8192) (O : Fin 4096)
    (hR : R.val = 1024 * (t.val / 32) + p.val) (hO : O.val = 512 * (t.val / 4 % 8) + f.val) :
    ((cfg0.win 5).blk t).view.emb (ix2 p f) = ix2 R O := by
  obtain ⟨-, -, -, -, -, -, -, -, -, -, e0, e1⟩ := idx_facts t
  refine funext fun a => Fin.ext ?_
  match a with
  | ⟨0, _⟩ => show win0_5.index t (0 : Fin 2) * 1024 + 1 * p.val = R.val; omega
  | ⟨1, _⟩ => show win0_5.index t (1 : Fin 2) * 512 + 1 * f.val = O.val; omega

end Cert.KernelIdeal.Blocks

end
-- ==== Proof.LibBlockSum.lean ====
/-
  Finite sums cut into blocks, over any additive commutative monoid. A sum over the first `n · q` naturals is the sum
  over `n` consecutive blocks of `q` terms each: index `k` is `i · q + j` for exactly one block `i < n` and one place
  `j < q` in it. A sum over the first `m + n` naturals is the sum of the first `m` terms plus the sum of the `n`
  after them. At 4096 = 4 · 1024 this gives the four quarter sums, added from the left, with or without a zero in front.
-/
import Mathlib.Algebra.BigOperators.Fin
import Mathlib.Data.Fintype.BigOperators
import Mathlib.Logic.Equiv.Fin.Basic

open scoped BigOperators

namespace LibBlockSum

variable {M : Type*} [AddCommMonoid M]

/-- Place `j` of block `i` is below `n · q`. -/
theorem block_lt {n q : Nat} (i : Fin n) (j : Fin q) : i.val * q + j.val < n * q :=
  calc i.val * q + j.val < i.val * q + q := Nat.add_lt_add_left j.isLt _
    _ = (i.val + 1) * q := (Nat.succ_mul _ _).symm
    _ ≤ n * q := Nat.mul_le_mul_right q i.isLt

/-- A sum of `n · q` terms is the sum over `n` blocks of the sums of each block's `q` terms. -/
theorem sum_blocks (n q : Nat) (f : Fin (n * q) → M) :
    ∑ k, f k = ∑ i : Fin n, ∑ j : Fin q, f ⟨i.val * q + j.val, block_lt i j⟩ := by
  rw [← Equiv.sum_comp finProdFinEquiv f, Fintype.sum_prod_type]
  refine Finset.sum_congr rfl fun i _ => Finset.sum_congr rfl fun j _ => congrArg f (Fin.ext ?_)
  show j.val + q * i.val = i.val * q + j.val
  rw [Nat.mul_comm, Nat.add_comm]

/-- A sum of `m + n` terms is the sum of the first `m` plus the sum of the last `n`. -/
theorem sum_split (m n : Nat) (f : Fin (m + n) → M) :
    ∑ k, f k = ∑ j : Fin m, f ⟨j.val, by omega⟩ + ∑ j : Fin n, f ⟨m + j.val, by omega⟩ :=
  Fin.sum_univ_add f

/-- A sum of 4096 terms is its four quarter sums, added from the left. -/
theorem sum_four_1024' (f : Fin 4096 → M) :
    ∑ k, f k = ((∑ j : Fin 1024, f ⟨j.val, by omega⟩ + ∑ j : Fin 1024, f ⟨1024 + j.val, by omega⟩)
      + ∑ j : Fin 1024, f ⟨2048 + j.val, by omega⟩) + ∑ j : Fin 1024, f ⟨3072 + j.val, by omega⟩ := by
  have h1 : ∑ k, f k = ∑ j : Fin 3072, f ⟨j.val, by omega⟩ + ∑ j : Fin 1024, f ⟨3072 + j.val, by omega⟩ :=
    sum_split 3072 1024 f
  have h2 : ∑ j : Fin 3072, f ⟨j.val, by omega⟩
      = ∑ j : Fin 2048, f ⟨j.val, by omega⟩ + ∑ j : Fin 1024, f ⟨2048 + j.val, by omega⟩ :=
    sum_split 2048 1024 fun k : Fin 3072 => f ⟨k.val, by omega⟩
  have h3 : ∑ j : Fin 2048, f ⟨j.val, by omega⟩
      = ∑ j : Fin 1024, f ⟨j.val, by omega⟩ + ∑ j : Fin 1024, f ⟨1024 + j.val, by omega⟩ :=
    sum_split 1024 1024 fun k : Fin 2048 => f ⟨k.val, by omega⟩
  rw [h1, h2, h3]

/-- The same with a zero in front, as an accumulation that starts from zero adds them. -/
theorem sum_four_1024 (f : Fin 4096 → M) :
    ∑ k, f k = (((0 + ∑ j : Fin 1024, f ⟨j.val, by omega⟩) + ∑ j : Fin 1024, f ⟨1024 + j.val, by omega⟩)
      + ∑ j : Fin 1024, f ⟨2048 + j.val, by omega⟩) + ∑ j : Fin 1024, f ⟨3072 + j.val, by omega⟩ := by
  rw [zero_add]
  exact sum_four_1024' f

end LibBlockSum
-- ==== Proof.GroupLinear.lean ====
/-
  A linear layer over a weight matrix stored quantized in groups, as one function of its five arrays.

  The weight W : [4096 outputs, 4096 inputs] is never stored. Row o keeps an integer code q (o, k) per input position k
  and, for each of its 32 groups of 128 consecutive positions, one scale and one zero point; position k lies in group
  k / 128, and the entry is rebuilt as
      W (o, k) = (q (o, k) − zero (o, k / 128)) · scale (o, k / 128).
  The layer sends the token rows x : [8192, 4096] to
      out (r, o) = Σ_{k < 4096} x (r, k) · W (o, k) + bias (o)
  over the extended reals. A finite sum there may be cut into consecutive runs and the runs added in any grouping
  (addition of extended reals is commutative and associative, infinities included), so the sum over the 4096 input
  positions is the sum of its four quarters of 1024, added from the left onto zero: the shape an accumulation over four
  blocks of the input axis leaves. No entry needs to be finite for that.
-/
import Idealize.ShloMosaic.Lib.ValueIdx
import proofs.«181240_j29317446762953_1_alg».proof.Proof.LibBlockSum

noncomputable section

open scoped BigOperators

namespace Cert.GroupLinear

open Idealize.ShloMosaic Idealize.ShloMosaic.ValueIdx

/-- The group of 128 consecutive input positions that position k lies in. -/
def grp (k : Fin 4096) : Fin 32 := ⟨k.val / 128, by have := k.isLt; omega⟩

/-- One term of the layer's sum: x (r, k) · W (o, k), the weight entry rebuilt from its code and its group's zero
    point and scale. -/
def term (x : FVec Ideal ⟨2, ![8192, 4096]⟩ .f32) (q : Vec Ideal ⟨2, ![4096, 4096]⟩ .i32)
    (s z : FVec Ideal ⟨2, ![4096, 32]⟩ .f32) (r : Fin 8192) (o : Fin 4096) (k : Fin 4096) : EReal :=
  x (ix2 r k) * ((FloatOps.sitofp (F := Ideal) .f32 (q (ix2 o k)) - z (ix2 o (grp k))) * s (ix2 o (grp k)))

/-- The layer's output at token r and output feature o. -/
def linearAt (x : FVec Ideal ⟨2, ![8192, 4096]⟩ .f32) (q : Vec Ideal ⟨2, ![4096, 4096]⟩ .i32)
    (s z : FVec Ideal ⟨2, ![4096, 32]⟩ .f32) (b : FVec Ideal ⟨1, ![4096]⟩ .f32) (r : Fin 8192) (o : Fin 4096) : EReal :=
  (∑ k : Fin 4096, term x q s z r o k) + b (ix1 o)

/-- The layer's output as an array [8192, 4096]. -/
def linearOut (x : FVec Ideal ⟨2, ![8192, 4096]⟩ .f32) (q : Vec Ideal ⟨2, ![4096, 4096]⟩ .i32)
    (s z : FVec Ideal ⟨2, ![4096, 32]⟩ .f32) (b : FVec Ideal ⟨1, ![4096]⟩ .f32) :
    FVec Ideal ⟨2, ![8192, 4096]⟩ .f32 :=
  fun i => linearAt x q s z b (i 0) (i 1)

theorem linearOut_apply (x : FVec Ideal ⟨2, ![8192, 4096]⟩ .f32) (q : Vec Ideal ⟨2, ![4096, 4096]⟩ .i32)
    (s z : FVec Ideal ⟨2, ![4096, 32]⟩ .f32) (b : FVec Ideal ⟨1, ![4096]⟩ .f32) (r : Fin 8192) (o : Fin 4096) :
    linearOut x q s z b (ix2 r o) = linearAt x q s z b r o := rfl

/-- Quarter c of the sum: the 1024 terms at the input positions 1024·c + e. -/
def quarter (x : FVec Ideal ⟨2, ![8192, 4096]⟩ .f32) (q : Vec Ideal ⟨2, ![4096, 4096]⟩ .i32)
    (s z : FVec Ideal ⟨2, ![4096, 32]⟩ .f32) (r : Fin 8192) (o : Fin 4096) (c : Fin 4) : EReal :=
  ∑ e : Fin 1024, term x q s z r o ⟨1024 * c.val + e.val, by have := c.isLt; have := e.isLt; omega⟩

/-- The output is the four quarter sums added one after the other onto zero, then the bias. -/
theorem linearAt_eq_quarters (x : FVec Ideal ⟨2, ![8192, 4096]⟩ .f32) (q : Vec Ideal ⟨2, ![4096, 4096]⟩ .i32)
    (s z : FVec Ideal ⟨2, ![4096, 32]⟩ .f32) (b : FVec Ideal ⟨1, ![4096]⟩ .f32) (r : Fin 8192) (o : Fin 4096) :
    linearAt x q s z b r o
      = ((((0 + quarter x q s z r o 0) + quarter x q s z r o 1) + quarter x q s z r o 2) + quarter x q s z r o 3)
        + b (ix1 o) := by
  unfold linearAt
  rw [LibBlockSum.sum_four_1024 (term x q s z r o)]
  rfl

end Cert.GroupLinear

end
-- ==== Proof.KernelValue.lean ====
/-
  The result array of the tiled computation is the group-quantized linear layer.

  For each token block i and feature block j the innermost grid axis visits the four tiles k = 0, 1, 2, 3 of the input
  axis in turn, at the consecutive points t − 3, t − 2, t − 1, t with t = (8·i + j)·4 + 3. The running block is reset
  and stepped at the first, stepped at the next two, and at the last it is stepped once more and written out with the
  bias added. So the block written back at point t is, at (p, f),
      ((((0 + C₀) + C₁) + C₂) + C₃) + bias (512·j + f),
  where C_k = Σ_{e < 1024} x (1024·i + p, 1024·k + e) · W (512·j + f, 1024·k + e) is tile k's contribution: the four
  quarters of the layer's sum over the 4096 input positions, which is the layer's output at (1024·i + p, 512·j + f).
  The 64 blocks written back (one per (i, j)) tile the [8192, 4096] result, so the whole array is the layer's output.
-/
import proofs.«181240_j29317446762953_1_alg».proof.Proof.Gen.KernelIdeal.Value
import proofs.«181240_j29317446762953_1_alg».proof.Proof.CaseValues
import proofs.«181240_j29317446762953_1_alg».proof.Proof.TileProduct
import proofs.«181240_j29317446762953_1_alg».proof.Proof.Blocks
import proofs.«181240_j29317446762953_1_alg».proof.Proof.GroupLinear

noncomputable section

open scoped BigOperators

namespace Cert.KernelIdeal.Layer

open Cert.KernelIdeal Cert.KernelIdeal.Gen Idealize.ShloMosaic Idealize.ShloMosaic.TcCoe Idealize.SL.Sem
open Idealize.ShloMosaic.Pipeline (Dat)
open Idealize.ShloMosaic.ValueIdx
open Cert.GroupLinear

variable {F : FTy → Type} [FloatOps F]

section AnyInstance

variable (m : (ℓ : Loc nD τ sig) → Buf (Elt F) ℓ)

/-- The accumulation step with point n's tiles, over a running block. -/
def step (c : Dev nD) (n : Fin cfg0.N) (acc : Vec F S1024x512 .f32) : Vec F S1024x512 .f32 :=
  k0_pay2 (iblk m c 1 n) (iblk m c 2 n) (iblk m c 3 n) (iblk m c 0 n) acc

/-- After a first tile's point the running block is the step over zeros. -/
theorem scratch_first (c : Dev nD) (n : Fin cfg0.N) (h0 : n.val % 4 = 0) (h1 : ¬n.val % 4 = 3) :
    (outsAt0 m c n.val n.isLt).2 = step m c n k0_pay1 := by
  have h2 := congrArg Prod.snd (outsAt0_A m c n h0 h1)
  dsimp only at h2
  exact h2.trans (Cases.scratch_A c (grid0.coords n) (ms0_0 n) (hs0_0 n) (ms0_1 n) (hs0_1 n) (ms0_2 n) (hs0_2 n) (ms0_3 n) (hs0_3 n) (ms0_4 n) (hs0_4 n) (ms0_5 n) (hs0_5 n) scM0_0 (Memref.isWhole_whole _) ((hcond0_0 n).mpr h0) (fun h => h1 ((hcond0_1 n).mp h))
    (iblk m c 0 n) (iblk m c 1 n) (iblk m c 2 n) (iblk m c 3 n) (iblk m c 4 n))

/-- After a middle tile's point it is the step over what the point before left. -/
theorem scratch_mid (c : Dev nD) (n : Fin cfg0.N) (h0 : ¬n.val % 4 = 0) (h1 : ¬n.val % 4 = 3) :
    (outsAt0 m c n.val n.isLt).2
      = step m c n (outsAt0 m c (n.val - 1) (Nat.lt_of_le_of_lt (Nat.sub_le _ _) n.isLt)).2 := by
  have h2 := congrArg Prod.snd (outsAt0_B m c n h0 h1)
  dsimp only at h2
  exact h2.trans (Cases.scratch_B c (grid0.coords n) (ms0_0 n) (hs0_0 n) (ms0_1 n) (hs0_1 n) (ms0_2 n) (hs0_2 n) (ms0_3 n) (hs0_3 n) (ms0_4 n) (hs0_4 n) (ms0_5 n) (hs0_5 n) scM0_0 (Memref.isWhole_whole _) (fun h => h0 ((hcond0_0 n).mp h)) (fun h => h1 ((hcond0_1 n).mp h))
    (iblk m c 0 n) (iblk m c 1 n) (iblk m c 2 n) (iblk m c 3 n) (iblk m c 4 n) (outsAt0 m c (n.val - 1) (Nat.lt_of_le_of_lt (Nat.sub_le _ _) n.isLt)).2)

/-- After a last tile's point the output block is that step plus the bias tile. -/
theorem out_last (c : Dev nD) (n : Fin cfg0.N) (h0 : ¬n.val % 4 = 0) (h1 : n.val % 4 = 3) :
    (outsAt0 m c n.val n.isLt).1
      = k0_pay3 (step m c n (outsAt0 m c (n.val - 1) (Nat.lt_of_le_of_lt (Nat.sub_le _ _) n.isLt)).2) (iblk m c 4 n) := by
  have h2 := congrArg Prod.fst (outsAt0_C m c n h0 h1)
  dsimp only at h2
  exact h2.trans (Cases.out_C c (grid0.coords n) (ms0_0 n) (hs0_0 n) (ms0_1 n) (hs0_1 n) (ms0_2 n) (hs0_2 n) (ms0_3 n) (hs0_3 n) (ms0_4 n) (hs0_4 n) (ms0_5 n) (hs0_5 n) scM0_0 (Memref.isWhole_whole _) (fun h => h0 ((hcond0_0 n).mp h)) ((hcond0_1 n).mpr h1)
    (iblk m c 0 n) (iblk m c 1 n) (iblk m c 2 n) (iblk m c 3 n) (iblk m c 4 n) (outsAt0 m c (n.val - 1) (Nat.lt_of_le_of_lt (Nat.sub_le _ _) n.isLt)).2)

/-- THE BLOCK WRITTEN BACK at a last tile's point t: four steps from zeros with the tiles of t − 3, t − 2, t − 1, t,
    then the bias tile. -/
theorem written_block (c : Dev nD) (t t1 t2 t3 : Fin cfg0.N) (h3 : t.val % 4 = 3)
    (e1 : t1.val = t.val - 1) (e2 : t2.val = t.val - 1 - 1) (e3 : t3.val = t.val - 1 - 1 - 1) :
    (outsAt0 m c t.val t.isLt).1
      = k0_pay3 (step m c t (step m c t1 (step m c t2 (step m c t3 k0_pay1)))) (iblk m c 4 t) := by
  obtain ⟨v1, hv1⟩ := t1; obtain ⟨v2, hv2⟩ := t2; obtain ⟨v3, hv3⟩ := t3
  dsimp only at e1 e2 e3
  subst e1 e2 e3
  have a3 := scratch_first m c ⟨t.val - 1 - 1 - 1, hv3⟩ (by dsimp only; omega) (by dsimp only; omega)
  have a2 := scratch_mid m c ⟨t.val - 1 - 1, hv2⟩ (by dsimp only; omega) (by dsimp only; omega)
  have a1 := scratch_mid m c ⟨t.val - 1, hv1⟩ (by dsimp only; omega) (by dsimp only; omega)
  have a0 := out_last m c t (by omega) h3
  exact a0.trans (congrArg (fun acc => k0_pay3 (step m c t acc) (iblk m c 4 t))
    (a1.trans (congrArg (step m c ⟨t.val - 1, hv1⟩) (a2.trans (congrArg (step m c ⟨t.val - 1 - 1, hv2⟩) a3)))))

end AnyInstance

section AtIdeal

variable (m : (ℓ : Loc nD τ sig) → Buf (Elt Ideal) ℓ) (ρ : Dev nD → PrngReg)

/-- The layer's output of the argument arrays as launched: what the result array will be shown to hold. -/
abbrev result (c : Dev nD) : Buf (Elt Ideal) ((c : Thread nD τ).loc main_v3) :=
  linearOut (m ((c : Thread nD τ).loc main_arg0)) (m ((c : Thread nD τ).loc main_arg1)) (m ((c : Thread nD τ).loc main_arg2)) (m ((c : Thread nD τ).loc main_arg3)) (m ((c : Thread nD τ).loc main_arg4))

/-- Position 1024·k + e of the input axis, e a position inside tile k. -/
abbrev pos (k : Fin 4) (e : Fin 1024) : Fin 4096 :=
  ⟨1024 * k.val + e.val, by have := k.isLt; have := e.isLt; omega⟩

/-- The contribution of point n's tiles to entry (p, f) of its block is quarter k = n mod 4 of the layer's sum at
    (1024·i + p, 512·j + f): the tiles are the arrays' entries at the point's offsets, and position e of the tile lies in
    the tile's group e / 128, which is group (1024·k + e) / 128 = 8·k + e / 128 of the row. -/
theorem contrib_eq (c : Dev nD) (n : Fin cfg0.N) (p : Fin 1024) (f : Fin 512) (R : Fin 8192) (O : Fin 4096) (k : Fin 4)
    (hR : R.val = 1024 * (n.val / 32) + p.val) (hO : O.val = 512 * (n.val / 4 % 8) + f.val) (hk : n.val % 4 = k.val) :
    Tile.contrib (iblk m c 1 n) (iblk m c 2 n) (iblk m c 3 n) (iblk m c 0 n) p f
      = quarter (m ((c : Thread nD τ).loc main_arg0)) (m ((c : Thread nD τ).loc main_arg1)) (m ((c : Thread nD τ).loc main_arg2)) (m ((c : Thread nD τ).loc main_arg3)) R O k := by
  unfold Tile.contrib quarter
  refine Finset.sum_congr rfl fun e _ => ?_
  have he := e.isLt
  have hkk := k.isLt
  have hK : (pos k e).val = 1024 * (n.val % 4) + e.val := by show 1024 * k.val + e.val = _; omega
  have hG : (grp (pos k e)).val = 8 * (n.val % 4) + (Tile.sub e).val := by
    show (1024 * k.val + e.val) / 128 = 8 * (n.val % 4) + e.val / 128
    omega
  unfold term
  rw [Blocks.tokens_at m c n p e R (pos k e) hR hK, Blocks.codes_at m c n f e O (pos k e) hO hK,
    Blocks.zeros_at m c n (Tile.sub e) f O (grp (pos k e)) hO hG,
    Blocks.scales_at m c n (Tile.sub e) f O (grp (pos k e)) hO hG]

/-- THE WRITTEN BLOCK, ENTRY BY ENTRY: four steps from zeros over the tiles of the points t − 3 … t, then the bias, is
    the layer's output at (1024·i + p, 512·j + f) — the four contributions are the four quarters of its sum. -/
theorem written_entry (c : Dev nD) (t t1 t2 t3 : Fin cfg0.N) (h3 : t.val % 4 = 3)
    (e1 : t1.val = t.val - 1) (e2 : t2.val = t.val - 1 - 1) (e3 : t3.val = t.val - 1 - 1 - 1)
    (p : Fin 1024) (f : Fin 512) (R : Fin 8192) (O : Fin 4096)
    (hR : R.val = 1024 * (t.val / 32) + p.val) (hO : O.val = 512 * (t.val / 4 % 8) + f.val) :
    k0_pay3 (step m c t (step m c t1 (step m c t2 (step m c t3 (k0_pay1 (F := Ideal)))))) (iblk m c 4 t) (ix2 p f)
      = linearAt (m ((c : Thread nD τ).loc main_arg0)) (m ((c : Thread nD τ).loc main_arg1)) (m ((c : Thread nD τ).loc main_arg2)) (m ((c : Thread nD τ).loc main_arg3)) (m ((c : Thread nD τ).loc main_arg4)) R O := by
  unfold step
  refine (Tile.chain_at (iblk m c 1 t3) (iblk m c 1 t2) (iblk m c 1 t1) (iblk m c 1 t) (iblk m c 2 t3) (iblk m c 2 t2) (iblk m c 2 t1) (iblk m c 2 t) (iblk m c 3 t3) (iblk m c 3 t2) (iblk m c 3 t1) (iblk m c 3 t)
    (iblk m c 0 t3) (iblk m c 0 t2) (iblk m c 0 t1) (iblk m c 0 t) (iblk m c 4 t) p f).trans ?_
  rw [linearAt_eq_quarters,
    contrib_eq m c t3 p f R O 0 (by omega) (by omega) (by show _ = 0; omega),
    contrib_eq m c t2 p f R O 1 (by omega) (by omega) (by show _ = 1; omega),
    contrib_eq m c t1 p f R O 2 (by omega) (by omega) (by show _ = 2; omega),
    contrib_eq m c t p f R O 3 hR hO h3,
    Blocks.bias_at m c t f O hO]

/-- WHAT A LAST TILE'S POINT WRITES BACK is its block of the layer's output. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  have hN : t.val < 256 := lt_of_lt_of_eq t.isLt (show cfg0.N = 256 from N_0)
  have hw := written_block m c t ⟨t.val - 1, by omega⟩ ⟨t.val - 1 - 1, by omega⟩ ⟨t.val - 1 - 1 - 1, by omega⟩ h3 rfl rfl rfl
  refine (Value.flushed5 m c t).trans ?_
  funext y
  obtain ⟨p, f, rfl⟩ : ∃ (p : Fin 1024) (f : Fin 512), y = ix2 p f := ⟨y 0, y 1, eq_ix2 y⟩
  have hp := p.isLt
  have hf' := f.isLt
  refine Eq.trans (congrFun hw (ix2 p f)) ?_
  show _ = result m c (((cfg0.win 5).blk t).view.emb (ix2 p f))
  rewrite [Blocks.out_emb t p f ⟨1024 * (t.val / 32) + p.val, by omega⟩ ⟨512 * (t.val / 4 % 8) + f.val, by omega⟩ rfl rfl]
  exact written_entry m c t _ _ _ h3 rfl rfl rfl p f _ _ rfl rfl

/-- Every entry (r, o) of the result lies in the block written back at the last tile's point of token block r / 1024
    and feature block o / 512. -/
theorem cover (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  have hN : cfg0.N = 256 := N_0
  obtain ⟨t, ht⟩ : ∃ t : Fin cfg0.N, t.val = ((i 0).val / 1024 * 8 + (i 1).val / 512) * 4 + 3 :=
    ⟨⟨((i 0).val / 1024 * 8 + (i 1).val / 512) * 4 + 3, by rw [hN]; omega⟩, rfl⟩
  obtain ⟨-, -, -, -, -, -, -, -, -, -, e0, e1⟩ := Blocks.idx_facts t
  refine ⟨t, (flush0_5 t).mpr (by omega), ?_⟩
  show i ∈ ((View.whole main_v3).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 512 ≤ (i 1).val ∧ (i 1).val < win0_5.index t (1 : Fin 2) * 512 + 512
    omega

/-- So after the run the result array holds the layer's output. -/
theorem final (c : Dev nD) : (dats m 0 c).arrAt 5 cfg0.N = result m c :=
  (dats m 0 c).arrAt_eq_of_cover 5 (result m c) (flushed_eq m c) cover

/-- The run, read: the result array at the layer's output of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end AtIdeal

end Cert.KernelIdeal.Layer

end
-- ==== Proof.RefValue.lean ====
/-
  The reference computes the group-quantized linear layer.

  It rebuilds the whole weight matrix first — the codes cut into [4096, 32, 128], each row's 32 zero points and scales
  spread over their groups' 128 places, subtracted and multiplied, the groups laid end to end again — and then takes
  one product over all 4096 input positions with the token rows, contracting the second axis of both factors, and adds the
  bias spread over the rows. Read at (r, o): position k of row o sits at place k mod 128 of group k / 128, so the rebuilt
  entry is (q (o, k) − zero (o, k / 128)) · scale (o, k / 128), and the result is Σ_k x (r, k) · W (o, k) + bias (o).
-/
import proofs.«181240_j29317446762953_1_alg».proof.Proof.Gen.ReferenceIdeal.Read
import proofs.«181240_j29317446762953_1_alg».proof.Proof.GroupLinear

noncomputable section

open scoped BigOperators

namespace Cert.ReferenceIdeal.RefValue

open Cert.ReferenceIdeal Cert.ReferenceIdeal.Read Idealize.ShloMosaic Idealize.ShloMosaic.ValueIdx
open Cert.GroupLinear

/-- The reference's result, stage by stage, is the layer's output at every index. -/
theorem result_eq (x0 : (⟨S8192x4096, .f32⟩ : BufTy).Contents (Elt Ideal)) (x1 : (⟨S4096x4096, .i32⟩ : BufTy).Contents (Elt Ideal))
    (x2 x3 : (⟨S4096x32, .f32⟩ : BufTy).Contents (Elt Ideal)) (x4 : (⟨S4096, .f32⟩ : BufTy).Contents (Elt Ideal)) :
    val_main_v12 (F := Ideal) x0 x1 x2 x3 x4 = linearOut x0 x1 x2 x3 x4 := by
  funext i
  obtain ⟨r, o, rfl⟩ : ∃ (r : Fin 8192) (o : Fin 4096), i = ix2 r o := ⟨i 0, i 1, eq_ix2 i⟩
  rw [linearOut_apply]
  unfold linearAt
  rw [val_main_v12_apply, val_main_v9_apply, val_main_v11_apply, val_main_v10_apply]
  have eb : idx_main_v10 (idx_main_v11 (ix2 r o)) = ix1 o :=
    funext fun a => Fin.ext (by match a with | ⟨0, _⟩ => rfl)
  rw [eb]
  refine congrArg (· + x4 (ix1 o)) (Finset.sum_congr rfl fun k _ => ?_)
  have hk := k.isLt
  have ho := o.isLt
  have el : lidx_main_v9 (ix2 r o) k = ix2 r k :=
    funext fun a => Fin.ext (by match a with | ⟨0, _⟩ => rfl | ⟨1, _⟩ => rfl)
  have eq : idx_main_v1 (idx_main_v8 (ridx_main_v9 (ix2 r o) k)) = ix2 o k :=
    funext fun a => Fin.ext (by
      match a with
      | ⟨0, _⟩ =>
        show (((o.val * 4096 + k.val) / 4096 * 32 + (o.val * 4096 + k.val) / 128 % 32) * 128
          + (o.val * 4096 + k.val) % 128) / 4096 = o.val
        omega
      | ⟨1, _⟩ =>
        show (((o.val * 4096 + k.val) / 4096 * 32 + (o.val * 4096 + k.val) / 128 % 32) * 128
          + (o.val * 4096 + k.val) % 128) % 4096 = k.val
        omega)
  have ez : idx_main_v2 (idx_main_v3 (idx_main_v8 (ridx_main_v9 (ix2 r o) k))) = ix2 o (grp k) :=
    funext fun a => Fin.ext (by
      match a with
      | ⟨0, _⟩ => show (o.val * 4096 + k.val) / 4096 = o.val; omega
      | ⟨1, _⟩ => show (o.val * 4096 + k.val) / 128 % 32 = k.val / 128; omega)
  have es : idx_main_v5 (idx_main_v6 (idx_main_v8 (ridx_main_v9 (ix2 r o) k))) = ix2 o (grp k) :=
    funext fun a => Fin.ext (by
      match a with
      | ⟨0, _⟩ => show (o.val * 4096 + k.val) / 4096 = o.val; omega
      | ⟨1, _⟩ => show (o.val * 4096 + k.val) / 128 % 32 = k.val / 128; omega)
  rw [val_main_v8_apply, val_main_v7_apply, val_main_v4_apply, val_main_v1_apply, val_main_v0_apply, val_main_v3_apply,
    val_main_v2_apply, val_main_v6_apply, val_main_v5_apply, el, eq, ez, es]
  rfl

end Cert.ReferenceIdeal.RefValue

end
-- ==== Proof.lean ====
/-
  A linear layer over group-quantized weights, tiled and accumulated, against the same layer computed in one piece.

  Both programs take token rows x : [8192, 4096], integer weight codes q : [4096, 4096], per-row-and-group scales and
  zero points [4096, 32] (groups of 128 consecutive input positions) and a bias [4096], and return
      out (r, o) = Σ_{k < 4096} x (r, k) · (q (o, k) − zero (o, k / 128)) · scale (o, k / 128) + bias (o).
  The reference rebuilds the whole weight matrix and takes one product over all input positions. The tiled program
  walks an 8 × 8 × 4 grid — token blocks of 1024, feature blocks of 512, tiles of 1024 input positions —, rebuilds
  one [512, 1024] weight tile per point, and accumulates the four tile products of a (token block, feature block) pair in
  a block it keeps between points: zeroed at the first tile, added to at each, written out with the bias at the last.
  On the extended reals the narrowing of both factors to 16 bits before each tile product is the identity, so what is
  written out is ((((0 + C₀) + C₁) + C₂) + C₃) + bias with C_k the sum over the k-th quarter of the input positions;
  and a finite sum of extended reals may be cut into consecutive runs added in any grouping (addition there is
  commutative and associative, infinities included), so this is the reference's single sum. No entry has to be finite
  for that: the precondition is not used by the value claim.

  The modules: GroupLinear (the layer as one function of the five arrays, and its sum as four quarters), TileProduct
  (one point's arithmetic entry by entry), CaseValues (what the first, the middle and the last tile's point leave
  behind), Blocks (where a point's tiles sit in the arrays), KernelValue (the result array of the tiled program is the
  layer's output), RefValue (so is the reference's result). The tiled program's idealization rewrites no operation.
-/
import proofs.«181240_j29317446762953_1_alg».proof.Defs
import proofs.«181240_j29317446762953_1_alg».proof.Proof.Gen.Kernel
import proofs.«181240_j29317446762953_1_alg».proof.Proof.Gen.Kernel.Skeleton
import proofs.«181240_j29317446762953_1_alg».proof.Proof.Gen.Kernel.Launch
import proofs.«181240_j29317446762953_1_alg».proof.Proof.Gen.Kernel.Points
import proofs.«181240_j29317446762953_1_alg».proof.Proof.Gen.Kernel.Frame
import proofs.«181240_j29317446762953_1_alg».proof.Proof.Gen.KernelIdeal
import proofs.«181240_j29317446762953_1_alg».proof.Proof.Gen.KernelIdeal.Skeleton
import proofs.«181240_j29317446762953_1_alg».proof.Proof.Gen.KernelIdeal.Launch
import proofs.«181240_j29317446762953_1_alg».proof.Proof.Gen.KernelIdeal.Points
import proofs.«181240_j29317446762953_1_alg».proof.Proof.Gen.KernelIdeal.Frame
import proofs.«181240_j29317446762953_1_alg».proof.Proof.Gen.ReferenceIdeal
import proofs.«181240_j29317446762953_1_alg».proof.Proof.Gen.Pre_finite_inputs
import proofs.«181240_j29317446762953_1_alg».proof.Proof.Gen.KernelIdeal.Value
import proofs.«181240_j29317446762953_1_alg».proof.Proof.Gen.ReferenceIdeal.Run
import proofs.«181240_j29317446762953_1_alg».proof.Proof.Gen.ReferenceIdeal.Read
import proofs.«181240_j29317446762953_1_alg».proof.Proof.KernelValue
import proofs.«181240_j29317446762953_1_alg».proof.Proof.RefValue
import Idealize.ShloMosaic.Adequacy
import Idealize.ShloMosaic.Init

noncomputable section

namespace Cert.Proof

open Idealize.ShloMosaic Idealize.SL.Sem

/-- The tiled program as printed runs to the end and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the layer's output of arguments that agree: the tiled program's
    result array by the four-quarter accumulation, the reference's by its single sum. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
